-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S1000000 : Shape := ⟨1, ![1000000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : FVec F S100000x1 .f32) (main_arg2 : IVec S1000000 32) (main_arg3 : IVec S1000000 32) (main_arg4 : FVec F S128x128 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S100000x1 : Shape := ⟨2, ![100000, 1]⟩
abbrev S1000000 : Shape := ⟨1, ![1000000]⟩
abbrev S128x128 : Shape := ⟨2, ![128, 128]⟩
abbrev S_ : Shape := ⟨0, ![]⟩
abbrev S1000000x1 : Shape := ⟨2, ![1000000, 1]⟩
abbrev S1000000x128 : Shape := ⟨2, ![1000000, 128]⟩
abbrev S4000x128 : Shape := ⟨2, ![4000, 128]⟩
abbrev S4000x1 : Shape := ⟨2, ![4000, 1]⟩
abbrev S4000 : Shape := ⟨1, ![4000]⟩

abbrev nBuf : Space → Nat
  | .hbm => 53
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S1000000, .i32⟩
  | .hbm, ⟨3, _⟩ => ⟨S1000000, .i32⟩
  | .hbm, ⟨4, _⟩ => ⟨S128x128, .f32⟩
  | .hbm, ⟨5, _⟩ => ⟨S128x128, .f32⟩
  | .hbm, ⟨6, _⟩ => ⟨S100000x128, .bf16⟩
  | .hbm, ⟨7, _⟩ => ⟨S128x128, .bf16⟩
  | .hbm, ⟨8, _⟩ => ⟨S128x128, .bf16⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x128, .bf16⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x128, .bf16⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x1, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x1, .f32⟩
  | .hbm, ⟨45, _⟩ => ⟨S1000000x1, .f32⟩
  | .hbm, ⟨46, _⟩ => ⟨S1000000x128, .bf16⟩
  | .hbm, ⟨47, _⟩ => ⟨S1000000x128, .f32⟩
  | .hbm, ⟨48, _⟩ => ⟨S_, .f32⟩
  | .hbm, ⟨49, _⟩ => ⟨S100000x128, .f32⟩
  | .hbm, ⟨50, _⟩ => ⟨S1000000x1, .i32⟩
  | .hbm, ⟨51, _⟩ => ⟨S100000x128, .f32⟩
  | .hbm, ⟨52, _⟩ => ⟨S100000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x1, .f32⟩
  | .local _ .vmem, ⟨5, _⟩ => ⟨S4000x1, .f32⟩
  | .local _ .vmem, ⟨6, _⟩ => ⟨S128x128, .bf16⟩
  | .local _ .vmem, ⟨7, _⟩ => ⟨S128x128, .bf16⟩
  | .local _ .vmem, ⟨8, _⟩ => ⟨S4000x128, .bf16⟩
  | .local _ .vmem, ⟨9, _⟩ => ⟨S4000x128, .bf16⟩
  | .local _ .vmem, ⟨10, _⟩ => ⟨S4000x128, .f32⟩
  | .local _ .vmem, ⟨11, _⟩ => ⟨S4000x128, .f32⟩
  | .local _ .vmem, ⟨12, _⟩ => ⟨S4000x128, .bf16⟩
  | .local _ .vmem, ⟨13, _⟩ => ⟨S4000x128, .bf16⟩
  | .local _ .vmem, ⟨14, _⟩ => ⟨S128x128, .bf16⟩
  | .local _ .vmem, ⟨15, _⟩ => ⟨S4000x128, .f32⟩
  | .local _ .vmem, ⟨16, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  reduces_S4000x128_S4000 : S4000x128.Reduces [1] S4000
  shapeCasts_S4000_S4000x1 : S4000.ShapeCasts S4000x1
  gather_S100000x128_S1000000x1_S1000000x128_1_0_n_n_0_1_1128_wf : GatherDims.WF S100000x128 S1000000x1 S1000000x128 [1] [0] [] [0] [] 1 ![1, 128]
  gather_S100000x1_S1000000x1_S1000000x1_1_0_n_n_0_1_11_wf : GatherDims.WF S100000x1 S1000000x1 S1000000x1 [1] [0] [] [0] [] 1 ![1, 1]
  dot_S4000x128_S128x128_S4000x128_1_0_0_1_n_n_wf : DotDims.WF S4000x128 S128x128 S4000x128 [1] [0] [0] [1] [] []
  scatter_S100000x128_S1000000x1_S1000000x128_1_0_0_1_wf : ScatterDims.WF S100000x128 S1000000x1 S1000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .bf16 = 32 ∨ (Rect.block (s := S1000000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S1000000x128.size a
  hwx0_1 : ∀ i : grid0.Coords, EltTy.bits .bf16 = 32 ∨ (Rect.block (s := S1000000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S1000000x1.size a
  hwx0_2 : ∀ i : grid0.Coords, EltTy.bits .f32 = 32 ∨ (Rect.block (s := S1000000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S1000000x128.size a
  hwx0_5 : ∀ i : grid0.Coords, EltTy.bits .bf16 = 32 ∨ (Rect.block (s := S1000000x128) S4000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf

abbrev win0_0 : Pipeline.Window sig grid0 :=
  Pipeline.Window.ofSpec (Memref.whole main_v9) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S1000000 : Shape := ⟨1, ![1000000]⟩
abbrev S128x128 : Shape := ⟨2, ![128, 128]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S1000000, .i32⟩
  | .hbm, ⟨3, _⟩ => ⟨S1000000, .i32⟩
  | .hbm, ⟨4, _⟩ => ⟨S128x128, .f32⟩
  | .hbm, ⟨5, _⟩ => ⟨S128x128, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x128, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .f32⟩
  | .hbm, ⟨24, _⟩ => ⟨S1000000x128, .f32⟩
  | .hbm, ⟨25, _⟩ => ⟨S1000000x128, .f32⟩
  | .hbm, ⟨26, _⟩ => ⟨S1000000x128, .f32⟩
  | .hbm, ⟨27, _⟩ => ⟨S1000000x128, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x1, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x1, .f32⟩
  | .hbm, ⟨46, _⟩ => ⟨S1000000x1, .f32⟩
  | .hbm, ⟨47, _⟩ => ⟨S1000000x128, .f32⟩
  | .hbm, ⟨48, _⟩ => ⟨S1000000x128, .f32⟩
  | .hbm, ⟨49, _⟩ => ⟨S_, .f32⟩
  | .hbm, ⟨50, _⟩ => ⟨S100000x128, .f32⟩
  | .hbm, ⟨51, _⟩ => ⟨S1000000x1, .i32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .i1⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000, .f32⟩
  | .hbm, ⟨65, _⟩ => ⟨S100000x1, .f32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S1000000x1_S1000000x128_1_0_n_n_0_1_1128_wf : GatherDims.WF S100000x128 S1000000x1 S1000000x128 [1] [0] [] [0] [] 1 ![1, 128]
  dot_S1000000x128_S128x128_S1000000x128_1_0_0_1_n_n_wf : DotDims.WF S1000000x128 S128x128 S1000000x128 [1] [0] [0] [1] [] []
  gather_S100000x1_S1000000x1_S1000000x1_1_0_n_n_0_1_11_wf : GatherDims.WF S100000x1 S1000000x1 S1000000x1 [1] [0] [] [0] [] 1 ![1, 1]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with every buffer named.

  @main is four segments: a stretch of host operations, the first region, a second stretch, the second region. The
  generated frame certificate runs them against thread states "every unscoped buffer at the boundary's contents";
  here the same run is read at the end for ALL those buffers, so that the result buffer is known, not only the
  arguments: after the run every unscoped buffer b holds the last boundary's contents at b.
-/
import proofs.«151121_j30751965840097_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and any property of final memories that follows from
    "every unscoped buffer holds the last boundary's contents" holds of every final memory. -/
theorem named {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with the result buffer at the last boundary's contents and the arguments as launched. -/
theorem result : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  named m ρ fun s h c =>
    ⟨h c _ (mem_uc main_v37 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩

end Cert.KernelIdeal.Run

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibRowsProduct.lean ====
/-
  The product of two matrices of extended reals as ONE function of its entries, and the ways a program
  spells it.

  `prod M K N x w` at the entry (r, c) is the sum over k < K of x (r, k) * w (k, c). On the extended reals this sum
  is a sum in a commutative monoid, so it does not depend on an order or a grouping, and nothing needs to be finite.

  * the host's `dot_general` with the plain dimension numbers is `prod`;
  * a `tpu.matmul` of the two operands cast to bf16, into the zero accumulator, is `prod` of the operands
    themselves (at the exact instance a change of float format is the identity);
  * ROW LOCALITY: an entry of the product reads one row of the left operand and one column of the right one, so
    the product of a block of rows with the whole right operand, at an entry of the block, is the product of the
    whole matrices at the entry the block's position sends it to. This is what lets a kernel tile the rows of the
    left operand over a grid and still compute the one product.
  * a row vector [1, N] added to every row (`addRow`), as the kernel spells it (a broadcast along the rows and a sum);
  * the hyperbolic tangent applied entry by entry is the same function whether the kernel's or the host's
    operation spells it.
-/
import Idealize.ShloMosaic.PureOps.Ideal.Laws
import Idealize.ShloMosaic.Lib.ValueIdx
import Idealize.ShloMosaic.Lib.Pipeline.Value
import proofs.«151121_j30751965840097_2_alg».proof.Proof.LibPlainDot

noncomputable section

namespace RowsProduct

open Idealize.ShloMosaic Idealize.ShloMosaic.ValueIdx

variable (M K N : Nat)

/-- The matrix product, entry by entry: at (r, c) the sum over k of x (r, k) * w (k, c). -/
def prod (x : FVec Ideal ⟨2, ![M, K]⟩ .f32) (w : FVec Ideal ⟨2, ![K, N]⟩ .f32) : FVec Ideal ⟨2, ![M, N]⟩ .f32 :=
  fun j => ∑ k : Fin K, (x (ix2 (j 0) k) : EReal) * w (ix2 k (j 1))

/-- The host's `dot_general` with plain dimension numbers is the matrix product. -/
theorem hostDot_eq (x : FVec Ideal ⟨2, ![M, K]⟩ .f32) (w : FVec Ideal ⟨2, ![K, N]⟩ .f32) :
    Host.dotGeneral (DotDims.plain M K N) none x w = prod M K N x w :=
  funext fun j => PlainDot.dotGeneral_apply M K N none .single x w j

/-- A `tpu.matmul` of the operands cast to bf16, into the zero accumulator, is the matrix product of the operands. -/
theorem matmulBf16_eq (x : FVec Ideal ⟨2, ![M, K]⟩ .f32) (w : FVec Ideal ⟨2, ![K, N]⟩ .f32)
    (h : FTy.bf16.bits < FTy.f32.bits) :
    matmul (DotDims.plain M K N) none (truncf .bf16 x h) (truncf .bf16 w h) (constant ⟨2, ![M, N]⟩ .f32 0x00000000#32)
      = prod M K N x w :=
  funext fun j => PlainDot.matmul_zero_apply M K N none (truncf .bf16 x h) (truncf .bf16 w h) j

/-- ROW LOCALITY. If row `j 0` of a block `xb` is row `i 0` of `X`, and column `j 1` of `wb` is column `i 1` of `W`,
    the product of the blocks at `j` is the product of the matrices at `i`. -/
theorem prod_rows {Mb Nb : Nat} (X : FVec Ideal ⟨2, ![M, K]⟩ .f32) (W : FVec Ideal ⟨2, ![K, N]⟩ .f32)
    (xb : FVec Ideal ⟨2, ![Mb, K]⟩ .f32) (wb : FVec Ideal ⟨2, ![K, Nb]⟩ .f32)
    (j : (⟨2, ![Mb, Nb]⟩ : Shape).Idx) (i : (⟨2, ![M, N]⟩ : Shape).Idx)
    (hx : ∀ k : Fin K, xb (ix2 (j 0) k) = X (ix2 (i 0) k)) (hw : ∀ k : Fin K, wb (ix2 k (j 1)) = W (ix2 k (i 1))) :
    prod Mb K Nb xb wb j = prod M K N X W i :=
  Finset.sum_congr rfl fun k _ => by rw [hx k, hw k]

/-- A row vector [1, N] added to every row of a matrix [M, N]. -/
def addRow (a : FVec Ideal ⟨2, ![M, N]⟩ .f32) (b : FVec Ideal ⟨2, ![1, N]⟩ .f32) : FVec Ideal ⟨2, ![M, N]⟩ .f32 :=
  fun i => (a i : EReal) + b (ix2 (0 : Fin 1) (i 1))

/-- The kernel's spelling of adding a row vector: the row broadcast along the rows, then an entrywise sum. -/
theorem addf_broadcastTo_eq (a : FVec Ideal ⟨2, ![M, N]⟩ .f32) (b : FVec Ideal ⟨2, ![1, N]⟩ .f32) (hN : N ≠ 1)
    (h : (⟨2, ![1, N]⟩ : Shape).Broadcasts ⟨2, ![M, N]⟩) :
    addf a (broadcastTo ⟨2, ![M, N]⟩ b h) = addRow M N a b := by
  funext i
  show (a i : EReal) + broadcastTo ⟨2, ![M, N]⟩ b h i = (a i : EReal) + b (ix2 (0 : Fin 1) (i 1))
  congr 1
  refine broadcastTo_apply b h i (ix2 (0 : Fin 1) (i 1)) fun a => ?_
  match a with
  | ⟨0, _⟩ => show (0 : Nat) = if (1 : Nat) = 1 then 0 else _; rw [if_pos rfl]
  | ⟨1, _⟩ => show (i 1).val = if N = 1 then 0 else (i 1).val; rw [if_neg hN]

/-- Row locality of `addRow`: an entry of a block of rows plus its bias entry is the whole matrix's entry plus the
    same bias entry, when the two summands agree. -/
theorem addRow_rows {Mb : Nat} (A : FVec Ideal ⟨2, ![M, N]⟩ .f32) (B : FVec Ideal ⟨2, ![1, N]⟩ .f32)
    (ab : FVec Ideal ⟨2, ![Mb, N]⟩ .f32) (bb : FVec Ideal ⟨2, ![1, N]⟩ .f32)
    (j : (⟨2, ![Mb, N]⟩ : Shape).Idx) (i : (⟨2, ![M, N]⟩ : Shape).Idx)
    (ha : ab j = A i) (hb : bb (ix2 (0 : Fin 1) (j 1)) = B (ix2 (0 : Fin 1) (i 1))) :
    addRow Mb N ab bb j = addRow M N A B i := by
  show (ab j : EReal) + bb (ix2 (0 : Fin 1) (j 1)) = (A i : EReal) + B (ix2 (0 : Fin 1) (i 1))
  rw [ha, hb]

/-- The hyperbolic tangent entry by entry: the kernel's operation and the host's are one function. -/
theorem tanh_eq_hostTanh {s : Shape} (x : FVec Ideal s .f32) : tanh x = Host.tanh x := rfl

end RowsProduct

end
-- ==== Proof.Spec.lean ====
/-
  One layer of message passing over a graph, written as functions of arrays of extended reals.

  Along an edge e with endpoint features hs(e,·), hd(e,·) (rows of 128) and a scalar weight sc(e), the MESSAGE is

      message(e, c) = ( Σ_k hs(e,k)·W1(k,c) + Σ_k (hs(e,k)·hd(e,k))·W2(k,c) ) · sc(e).

  At a node r holding the accumulated messages acc(r,·) and its own features ego(r,·), the UPDATE is

      h(r, c)   = leaky( acc(r,c) + Σ_k ego(r,k)·W1(k,c) ),   leaky(x) = x if 0 ≤ x, else slope·x,
      out(r, c) = h(r,c) / max( sqrt( Σ_c' h(r,c')² ), floor ).

  Both are ROW LOCAL: row e of the message reads row e of hs, hd, sc and the whole weights; row r of the update
  reads row r of acc and ego and the whole W1 (the sum of squares runs over the columns of the same row). So a block
  of consecutive rows of either array is the same function of the corresponding blocks of rows: this is what
  lets the rows be tiled over a grid. Nothing here needs a finite entry: the sums are sums in the commutative monoid
  of extended reals, and no factor is moved across a sum.

  The slope and the floor are kept as the 32-bit words the programs print (the same words on both sides).
-/
import Idealize.ShloMosaic.PureOps.Ideal.Laws
import Idealize.ShloMosaic.Lib.ValueIdx
import proofs.«151121_j30751965840097_2_alg».proof.Proof.LibRowsProduct

noncomputable section

namespace GraphLayer

open Idealize.ShloMosaic Idealize.ShloMosaic.ValueIdx

/-- An a × b array of extended reals. -/
abbrev Mat (a b : Nat) : Type := FVec Ideal ⟨2, ![a, b]⟩ .f32

/-- The message along each of n edges: (hs·W1 + (hs ∘ hd)·W2) scaled row by row by sc. -/
def message (n : Nat) (hs hd : Mat n 128) (sc : Mat n 1) (w1 w2 : Mat 128 128) : Mat n 128 :=
  fun j => ((RowsProduct.prod n 128 128 hs w1 j : EReal) + RowsProduct.prod n 128 128 (mulf hs hd) w2 j)
    * sc (ix2 (j 0) (0 : Fin 1))

/-- The leaky rectifier: x where 0 ≤ x, the slope word times x elsewhere. -/
def leaky (x : EReal) : EReal :=
  Scalar.select (FloatOps.cmpf (F := Ideal) (φ := .f32) .oge x (FloatOps.ofBits (F := Ideal) .f32 0x00000000#32)) x
    (FloatOps.mulf (F := Ideal) (φ := .f32) (FloatOps.ofBits (F := Ideal) .f32 0x3E4CCCCD#32) x)

/-- The rectified pre-activation at each of n nodes: leaky (acc + ego·W1). -/
def activated (n : Nat) (acc ego : Mat n 128) (w1 : Mat 128 128) : Mat n 128 :=
  fun i => leaky ((acc i : EReal) + RowsProduct.prod n 128 128 ego w1 i)

/-- The squared length of row r of h. -/
def rowSq (n : Nat) (h : Mat n 128) (r : Fin n) : EReal := ∑ k : Fin 128, (h (ix2 r k) : EReal) * h (ix2 r k)

/-- Each row divided by its length, the length floored at the floor word. -/
def normalized (n : Nat) (h : Mat n 128) : Mat n 128 :=
  fun j => Ideal.div (h j) (max (Ideal.sqrt (rowSq n h (j 0))) (Ideal.ofBits .f32 0x2B8CBCCC#32))

/-- The node update. -/
def update (n : Nat) (acc ego : Mat n 128) (w1 : Mat 128 128) : Mat n 128 :=
  normalized n (activated n acc ego w1)

/-- ROW LOCALITY of the message: where row `j 0` of the blocks is row `i 0` of the arrays, the columns agree and the
    weights are the same, the message of the blocks at `j` is the message of the arrays at `i`. -/
theorem message_rows {n nb : Nat} (hs hd : Mat n 128) (sc : Mat n 1) (w1 w2 : Mat 128 128)
    (hsb hdb : Mat nb 128) (scb : Mat nb 1) (w1b w2b : Mat 128 128)
    (j : (⟨2, ![nb, 128]⟩ : Shape).Idx) (i : (⟨2, ![n, 128]⟩ : Shape).Idx) (hcol : j 1 = i 1)
    (h1 : ∀ k : Fin 128, hsb (ix2 (j 0) k) = hs (ix2 (i 0) k))
    (h2 : ∀ k : Fin 128, hdb (ix2 (j 0) k) = hd (ix2 (i 0) k))
    (h3 : scb (ix2 (j 0) (0 : Fin 1)) = sc (ix2 (i 0) (0 : Fin 1)))
    (h4 : w1b = w1) (h5 : w2b = w2) :
    message nb hsb hdb scb w1b w2b j = message n hs hd sc w1 w2 i := by
  subst h4 h5
  unfold message
  rw [h3,
    RowsProduct.prod_rows n 128 128 hs w1b hsb w1b j i h1 (fun k => by rw [hcol]),
    RowsProduct.prod_rows n 128 128 (mulf hs hd) w2b (mulf hsb hdb) w2b j i
      (fun k => by show (hsb _ : EReal) * hdb _ = (hs _ : EReal) * hd _; rw [h1 k, h2 k]) (fun k => by rw [hcol])]

/-- ROW LOCALITY of the rectified pre-activation. -/
theorem activated_rows {n nb : Nat} (acc ego : Mat n 128) (w1 : Mat 128 128)
    (accb egob : Mat nb 128) (w1b : Mat 128 128)
    (j : (⟨2, ![nb, 128]⟩ : Shape).Idx) (i : (⟨2, ![n, 128]⟩ : Shape).Idx) (hcol : j 1 = i 1)
    (h1 : accb j = acc i) (h2 : ∀ k : Fin 128, egob (ix2 (j 0) k) = ego (ix2 (i 0) k)) (h3 : w1b = w1) :
    activated nb accb egob w1b j = activated n acc ego w1 i := by
  subst h3
  unfold activated
  rw [h1, RowsProduct.prod_rows n 128 128 ego w1b egob w1b j i h2 (fun k => by rw [hcol])]

/-- ROW LOCALITY of the normalisation: where row `p` of hb is row `r` of h, entry (p, q) of the normalised block is
    entry (r, q) of the normalised array. -/
theorem normalized_rows {n nb : Nat} (h : Mat n 128) (hb : Mat nb 128) (p : Fin nb) (r : Fin n) (q : Fin 128)
    (hrow : ∀ k : Fin 128, hb (ix2 p k) = h (ix2 r k)) :
    normalized nb hb (ix2 p q) = normalized n h (ix2 r q) := by
  unfold normalized rowSq
  show Ideal.div (hb (ix2 p q)) (max (Ideal.sqrt (∑ k : Fin 128, (hb (ix2 p k) : EReal) * hb (ix2 p k))) _)
    = Ideal.div (h (ix2 r q)) (max (Ideal.sqrt (∑ k : Fin 128, (h (ix2 r k) : EReal) * h (ix2 r k))) _)
  rw [hrow q, Finset.sum_congr rfl fun k _ => by rw [hrow k]]

/-- ROW LOCALITY of the update: where row `p` of the blocks is row `r` of the arrays and the weights are the same,
    entry (p, q) of the update of the blocks is entry (r, q) of the update of the arrays. -/
theorem update_rows {n nb : Nat} (acc ego : Mat n 128) (w1 : Mat 128 128)
    (accb egob : Mat nb 128) (w1b : Mat 128 128) (p : Fin nb) (r : Fin n) (q : Fin 128)
    (h1 : ∀ k : Fin 128, accb (ix2 p k) = acc (ix2 r k)) (h2 : ∀ k : Fin 128, egob (ix2 p k) = ego (ix2 r k))
    (h3 : w1b = w1) :
    update nb accb egob w1b (ix2 p q) = update n acc ego w1 (ix2 r q) :=
  normalized_rows _ _ p r q fun k =>
    activated_rows acc ego w1 accb egob w1b (ix2 p k) (ix2 r k) rfl (h1 k) h2 h3

end GraphLayer

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.KernelBody.lean ====
/-
  What the two kernel bodies compute from the blocks they load, on the extended reals.

  The first body multiplies its two blocks of edge features by the two weight matrices (two matrix products into a
  zero accumulator), adds the products and scales each row by the edge's weight: it is `GraphLayer.message` of its
  blocks. The second adds the product of the node features and W1 to the accumulated messages, rectifies, sums the
  squares along each row (a lane reduction kept as a column), and divides each row by the floored root: it is
  `GraphLayer.update` of its blocks. A change of float format is the identity on the extended reals, and a shape
  cast to the same shape is the identity.
-/
import proofs.«151121_j30751965840097_2_alg».proof.Proof.Gen.KernelIdeal.Skeleton
import proofs.«151121_j30751965840097_2_alg».proof.Proof.Spec
import proofs.«151121_j30751965840097_2_alg».proof.Proof.LibKeepdims
import Idealize.ShloMosaic.Lib.Pipeline.Value

noncomputable section

namespace Cert.KernelIdeal.Body

open Cert.KernelIdeal Cert.KernelIdeal.Gen Idealize.ShloMosaic Idealize.ShloMosaic.ValueIdx

/-- A block of 4000 rows times a 128 × 128 matrix, into the zero accumulator, is the matrix product. -/
theorem rows_matmul {φ₁ φ₂ : FTy} (x : FVec Ideal S4000x128 φ₁) (w : FVec Ideal S128x128 φ₂) :
    matmul dot_S4000x128_S128x128_S4000x128_1_0_0_1_n_n none x w (constant S4000x128 .f32 0x00000000#32)
      = RowsProduct.prod 4000 128 128 x w :=
  funext fun j => PlainDot.matmul_zero_apply 4000 128 128 none x w j

/-- The message body's stored value is the message of the loaded blocks. -/
theorem message_payload (x0 x1 : Vec Ideal S4000x128 .bf16) (x3 x4 : Vec Ideal S128x128 .bf16)
    (x2 : Vec Ideal S4000x1 .f32) :
    k0_pay1 (F := Ideal) x0 x1 x3 x4 x2 = GraphLayer.message 4000 x0 x1 x2 x3 x4 := by
  funext j
  obtain ⟨p, q, rfl⟩ : ∃ (p : Fin 4000) (q : Fin 128), j = ix2 p q := ⟨j 0, j 1, eq_ix2 j⟩
  unfold k0_pay1
  simp only [shapeCast_self, rows_matmul]
  show ((RowsProduct.prod 4000 128 128 x0 x3 (ix2 p q) : EReal) + RowsProduct.prod 4000 128 128 (mulf x0 x1) x4 (ix2 p q))
      * broadcastTo S4000x128 x2 broadcasts_S4000x1_S4000x128 (ix2 p q) = _
  rw [Keepdims.broadcastTo_a1_ab_apply x2 broadcasts_S4000x1_S4000x128 p q]
  rfl

/-- The body's rectifier (compare with zero, select, slope times the value) is `leaky` entry by entry. -/
theorem rectify_eq (v : FVec Ideal S4000x128 .f32) :
    select (cmpf .oge v (broadcast S4000x128 (FloatOps.ofBits .f32 0x00000000#32))) v
        (mulf (broadcast S4000x128 (FloatOps.ofBits .f32 0x3E4CCCCD#32)) v)
      = fun i => GraphLayer.leaky (v i) := rfl

/-- The body's normalisation: the squares summed along each row and kept as a column, the root floored, the column
    spread back over the rows, and the quotient — `normalized` of the block. -/
theorem normalize_eq (h : FVec Ideal S4000x128 .f32) (hφ : FKind.Formats FTy.f32)
    (hacc : (0x00000000#32 : BitVec FTy.f32.bits) = FKind.add.neutral FTy.f32 hφ) :
    divf h (broadcastTo S4000x128
        (maximumf (sqrt (shapeCast S4000x1
            (multiReduction .add [1] S4000 (mulf h h) 0x00000000#32 reduces_S4000x128_S4000 hφ hacc) shapeCasts_S4000_S4000x1))
          (broadcast S4000x1 (FloatOps.ofBits .f32 0x2B8CBCCC#32)))
        broadcasts_S4000x1_S4000x128)
      = GraphLayer.normalized 4000 h := by
  funext j
  obtain ⟨p, q, rfl⟩ : ∃ (p : Fin 4000) (q : Fin 128), j = ix2 p q := ⟨j 0, j 1, eq_ix2 j⟩
  show Ideal.div (h (ix2 p q)) (broadcastTo S4000x128 _ broadcasts_S4000x1_S4000x128 (ix2 p q)) = _
  rw [Keepdims.broadcastTo_a1_ab_apply _ broadcasts_S4000x1_S4000x128 p q]
  show Ideal.div (h (ix2 p q)) (max (Ideal.sqrt (shapeCast S4000x1
      (multiReduction .add [1] S4000 (mulf h h) 0x00000000#32 reduces_S4000x128_S4000 hφ hacc) shapeCasts_S4000_S4000x1
      (ix2 p (0 : Fin 1)))) (Ideal.ofBits .f32 0x2B8CBCCC#32)) = _
  rw [Keepdims.rowSumKeep_apply (mulf h h) 0x00000000#32 reduces_S4000x128_S4000 hφ hacc shapeCasts_S4000_S4000x1 p (0 : Fin 1)]
  rfl

/-- The update body's stored value is the update of the loaded blocks. -/
theorem update_payload (x1 : Vec Ideal S4000x128 .bf16) (x2 : Vec Ideal S128x128 .bf16)
    (x0 : Vec Ideal S4000x128 .f32) :
    k1_pay1 (F := Ideal) x1 x2 x0 = GraphLayer.update 4000 x0 x1 x2 := by
  unfold k1_pay1
  simp only [shapeCast_self, rows_matmul, rectify_eq]
  exact normalize_eq _ _ _

end Cert.KernelIdeal.Body

end
-- ==== Proof.Regions.lean ====
/-
  What each of the two regions leaves in its output array, as one function of the arrays it finds.

  Each region tiles the rows of its row-indexed arrays over a one-dimensional grid, 4000 rows a point, and stages
  the weights whole. Point t's blocks are rows 4000·t … 4000·t + 3999 of the arrays; its body writes the message
  (first region) or the update (second region) of those blocks; both are row local (`GraphLayer.message_rows`,
  `GraphLayer.update_rows`), so what point t writes back is rows 4000·t … of the message, or the update, of the WHOLE
  arrays. The blocks cover every row (row r lies in point r / 4000's block), so after the region the output array is
  that whole-array function. Stated for any contents `V` the region is entered from.
-/
import proofs.«151121_j30751965840097_2_alg».proof.Proof.Gen.KernelIdeal.Frame
import proofs.«151121_j30751965840097_2_alg».proof.Proof.KernelBody
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-! ## The first region: the messages -/

/-- The printed index maps over the 250 points: a row window's block index is (t, 0), a weight window's (0, 0). -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 4000·t + p of the array. -/
def row0 (t : Fin cfg0.N) (p : Fin 4000) : Fin 1000000 :=
  ⟨t.val * 4000 + p.val, by have h : t.val < 250 := N_0 ▸ t.isLt; have := p.isLt; omega⟩

/-- The block of source features at point t, read at (p, k). -/
theorem read0_0 (c : Dev nD) (t : Fin cfg0.N) (p : Fin 4000) (k : Fin 128) :
    iblk0 V c 0 t (ix2 p k) = V c main_v9 (ix2 (row0 t p) k) := by
  obtain ⟨e0, e1, -⟩ := index0 t
  show V c main_v9 (((cfg0.win 0).blk t).view.emb (ix2 p k)) = V c main_v9 (ix2 (row0 t p) k)
  refine congrArg (V c main_v9) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

/-- The block of destination features at point t, read at (p, k). -/
theorem read0_1 (c : Dev nD) (t : Fin cfg0.N) (p : Fin 4000) (k : Fin 128) :
    iblk0 V c 1 t (ix2 p k) = V c main_v16 (ix2 (row0 t p) k) := by
  obtain ⟨-, -, e0, e1, -⟩ := index0 t
  show V c main_v16 (((cfg0.win 1).blk t).view.emb (ix2 p k)) = V c main_v16 (ix2 (row0 t p) k)
  refine congrArg (V c main_v16) (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * k.val = k.val; omega

/-- The block of edge weights at point t, read at (p, 0). -/
theorem read0_2 (c : Dev nD) (t : Fin cfg0.N) (p : Fin 4000) :
    iblk0 V c 2 t (ix2 p (0 : Fin 1)) = V c main_v31 (ix2 (row0 t p) (0 : Fin 1)) := by
  obtain ⟨-, -, -, -, e0, e1, -⟩ := index0 t
  show V c main_v31 (((cfg0.win 2).blk t).view.emb (ix2 p (0 : Fin 1))) = V c main_v31 (ix2 (row0 t p) (0 : Fin 1))
  refine congrArg (V c main_v31) (funext fun a => Fin.ext ?_)
  match a with
  | ⟨0, _⟩ => show win0_2.index t (0 : Fin 2) * 4000 + 1 * p.val = t.val * 4000 + p.val; omega
  | ⟨1, _⟩ => show win0_2.index t (1 : Fin 2) * 1 + 1 * 0 = 0; omega

/-- The first weight matrix is staged whole at every point. -/
theorem read0_3 (c : Dev nD) (t : Fin cfg0.N) : iblk0 V c 3 t = V c main_v1 := by
  obtain ⟨-, -, -, -, -, -, e0, e1, -⟩ := index0 t
  funext y
  show V c main_v1 (((cfg0.win 3).blk t).view.emb y) = V c main_v1 y
  refine congrArg (V c main_v1) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second weight matrix is staged whole at every point. -/
theorem read0_4 (c : Dev nD) (t : Fin cfg0.N) : iblk0 V c 4 t = V c main_v2 := by
  obtain ⟨-, -, -, -, -, -, -, -, e0, e1, -⟩ := index0 t
  funext y
  show V c main_v2 (((cfg0.win 4).blk t).view.emb y) = V c main_v2 y
  refine congrArg (V c main_v2) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Entry (p, q) of the output block at point t sits at (4000·t + p, q) of the output array. -/
theorem emb0_5 (t : Fin cfg0.N) (p : Fin 4000) (q : Fin 128) :
    ((cfg0.win 5).blk t).view.emb (ix2 p q) = ix2 (row0 t p) q := by
  obtain ⟨-, -, -, -, -, -, -, -, -, -, e0, e1⟩ := index0 t
  refine funext fun a => Fin.ext ?_
  match a with
  | ⟨0, _⟩ => show win0_5.index t (0 : Fin 2) * 4000 + 1 * p.val = t.val * 4000 + p.val; omega
  | ⟨1, _⟩ => show win0_5.index t (1 : Fin 2) * 128 + 1 * q.val = q.val; omega

/-- The messages of the whole arrays the first region finds. -/
abbrev messages (c : Dev nD) : GraphLayer.Mat 1000000 128 :=
  GraphLayer.message 1000000 (V c main_v9) (V c main_v16) (V c main_v31) (V c main_v1) (V c main_v2)

/-- WHAT POINT t WRITES BACK is its block of the messages of the whole arrays. -/
theorem flushed0 (c : Dev nD) (t : Fin cfg0.N) :
    (dat0 V c).flushed 5 t = ((cfg0.win 5).blk t).view.read (Elt Ideal) (messages V c) := by
  show (cfg0.win 5).cut (grid0.coords t) ((dat0 V c).after 5 t) = _
  rw [after0_5]
  unfold out0_5
  rw [View.canon_unit_zero origin]
  simp only [View.ld_unit_zero (S := S4000x128) origin, View.ld_unit_zero (S := S128x128) origin,
    View.ld_unit_zero (S := S4000x1) origin]
  rw [Body.message_payload]
  funext y
  obtain ⟨p, q, rfl⟩ : ∃ (p : Fin 4000) (q : Fin 128), y = ix2 p q := ⟨y 0, y 1, eq_ix2 y⟩
  show GraphLayer.message 4000 (iblk0 V c 0 t) (iblk0 V c 1 t) (iblk0 V c 2 t) (iblk0 V c 3 t) (iblk0 V c 4 t) (ix2 p q)
    = messages V c (((cfg0.win 5).blk t).view.emb (ix2 p q))
  rw [emb0_5 t p q]
  exact GraphLayer.message_rows (V c main_v9) (V c main_v16) (V c main_v31) (V c main_v1) (V c main_v2)
    (iblk0 V c 0 t) (iblk0 V c 1 t) (iblk0 V c 2 t) (iblk0 V c 3 t) (iblk0 V c 4 t)
    (ix2 p q) (ix2 (row0 t p) q) rfl (fun k => read0_0 V c t p k) (fun k => read0_1 V c t p k) (read0_2 V c t p)
    (read0_3 V c t) (read0_4 V c t)

/-- An index of the output array is in point t's block iff each coordinate is in the block's range on its axis. -/
theorem mem_blk0 (t : Fin cfg0.N) (i : S1000000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v32).slice (win0_5.rect t)).set ↔ _
  rw [View.set_slice_whole, Rect.mem_set_unit]
  exact Iff.rfl

/-- Row r of the output array lies in the block of point r / 4000. -/
theorem cover0 (i : S1000000x128.Idx) :
    ∃ t : Fin cfg0.N, (cfg0.win 5).flush t = true ∧ i ∈ ((cfg0.win 5).blk t).view.set := by
  have hi0 : (i 0).val < 1000000 := (i 0).isLt
  have hi1 : (i 1).val < 128 := (i 1).isLt
  let t : Fin cfg0.N := ⟨(i 0).val / 4000, by show _ < grid0.N; rw [N_0]; omega⟩
  obtain ⟨-, -, -, -, -, -, -, -, -, -, e0, e1⟩ := index0 t
  have ht : t.val = (i 0).val / 4000 := rfl
  refine ⟨t, flush0_5 t, ?_⟩
  rw [mem_blk0]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- AFTER THE FIRST REGION its output array holds the messages of the arrays it found. -/
theorem array0 (c : Dev nD) : (dat0 V c).arrAt 5 cfg0.N = messages V c :=
  (dat0 V c).arrAt_eq_of_cover 5 (messages V c) (fun t _ => flushed0 V c t) cover0

/-! ## The second region: the update -/

/-- The printed index maps over the 25 points. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block is row 4000·t + p of the array. -/
def row1 (t : Fin cfg1.N) (p : Fin 4000) : Fin 100000 :=
  ⟨t.val * 4000 + p.val, by have h : t.val < 25 := N_1 ▸ t.isLt; have := p.isLt; omega⟩

/-- The block of accumulated messages at point t, read at (p, k). -/
theorem read1_0 (c : Dev nD) (t : Fin cfg1.N) (p : Fin 4000) (k : Fin 128) :
    iblk1 V c 0 t (ix2 p k) = V c main_v36 (ix2 (row1 t p) k) := by
  obtain ⟨e0, e1, -⟩ := index1 t
  show V c main_v36 (((cfg1.win 0).blk t).view.emb (ix2 p k)) = V c main_v36 (ix2 (row1 t p) k)
  refine congrArg (V c main_v36) (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * k.val = k.val; omega

/-- The block of node features at point t, read at (p, k). -/
theorem read1_1 (c : Dev nD) (t : Fin cfg1.N) (p : Fin 4000) (k : Fin 128) :
    iblk1 V c 1 t (ix2 p k) = V c main_v0 (ix2 (row1 t p) k) := by
  obtain ⟨-, -, e0, e1, -⟩ := index1 t
  show V c main_v0 (((cfg1.win 1).blk t).view.emb (ix2 p k)) = V c main_v0 (ix2 (row1 t p) k)
  refine congrArg (V c main_v0) (funext fun a => Fin.ext ?_)
  match a with
  | ⟨0, _⟩ => show win1_1.index t (0 : Fin 2) * 4000 + 1 * p.val = t.val * 4000 + p.val; omega
  | ⟨1, _⟩ => show win1_1.index t (1 : Fin 2) * 128 + 1 * k.val = k.val; omega

/-- The weight matrix is staged whole at every point. -/
theorem read1_2 (c : Dev nD) (t : Fin cfg1.N) : iblk1 V c 2 t = V c main_v1 := by
  obtain ⟨-, -, -, -, e0, e1, -⟩ := index1 t
  funext y
  show V c main_v1 (((cfg1.win 2).blk t).view.emb y) = V c main_v1 y
  refine congrArg (V c main_v1) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Entry (p, q) of the output block at point t sits at (4000·t + p, q) of the output array. -/
theorem emb1_3 (t : Fin cfg1.N) (p : Fin 4000) (q : Fin 128) :
    ((cfg1.win 3).blk t).view.emb (ix2 p q) = ix2 (row1 t p) q := by
  obtain ⟨-, -, -, -, -, -, e0, e1⟩ := index1 t
  refine funext fun a => Fin.ext ?_
  match a with
  | ⟨0, _⟩ => show win1_3.index t (0 : Fin 2) * 4000 + 1 * p.val = t.val * 4000 + p.val; omega
  | ⟨1, _⟩ => show win1_3.index t (1 : Fin 2) * 128 + 1 * q.val = q.val; omega

/-- The update of the whole arrays the second region finds. -/
abbrev updated (c : Dev nD) : GraphLayer.Mat 100000 128 :=
  GraphLayer.update 100000 (V c main_v36) (V c main_v0) (V c main_v1)

/-- WHAT POINT t WRITES BACK is its block of the update of the whole arrays. -/
theorem flushed1 (c : Dev nD) (t : Fin cfg1.N) :
    (dat1 V c).flushed 3 t = ((cfg1.win 3).blk t).view.read (Elt Ideal) (updated V c) := by
  show (cfg1.win 3).cut (grid1.coords t) ((dat1 V c).after 3 t) = _
  rw [after1_3]
  unfold out1_3
  rw [View.canon_unit_zero origin]
  simp only [View.ld_unit_zero (S := S4000x128) origin, View.ld_unit_zero (S := S128x128) origin]
  rw [Body.update_payload]
  funext y
  obtain ⟨p, q, rfl⟩ : ∃ (p : Fin 4000) (q : Fin 128), y = ix2 p q := ⟨y 0, y 1, eq_ix2 y⟩
  show GraphLayer.update 4000 (iblk1 V c 0 t) (iblk1 V c 1 t) (iblk1 V c 2 t) (ix2 p q)
    = updated V c (((cfg1.win 3).blk t).view.emb (ix2 p q))
  rw [emb1_3 t p q]
  exact GraphLayer.update_rows (V c main_v36) (V c main_v0) (V c main_v1)
    (iblk1 V c 0 t) (iblk1 V c 1 t) (iblk1 V c 2 t) p (row1 t p) q
    (fun k => read1_0 V c t p k) (fun k => read1_1 V c t p k) (read1_2 V c t)

/-- An index of the output array is in point t's block iff each coordinate is in the block's range on its axis. -/
theorem mem_blk1 (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v37).slice (win1_3.rect t)).set ↔ _
  rw [View.set_slice_whole, Rect.mem_set_unit]
  exact Iff.rfl

/-- Row r of the output array lies in the block of point r / 4000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  let t : Fin cfg1.N := ⟨(i 0).val / 4000, by show _ < grid1.N; rw [N_1]; omega⟩
  obtain ⟨-, -, -, -, -, -, e0, e1⟩ := index1 t
  have ht : t.val = (i 0).val / 4000 := rfl
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

/-- AFTER THE SECOND REGION its output array holds the update of the arrays it found. -/
theorem array1 (c : Dev nD) : (dat1 V c).arrAt 3 cfg1.N = updated V c :=
  (dat1 V c).arrAt_eq_of_cover 3 (updated V c) (fun t _ => flushed1 V c t) cover1

/-- An input array of the first region is left as found. -/
theorem kept0 (c : Dev nD) (w : Fin cfg0.W) (hin : (cfg0.win w).isOut = false) :
    (dat0 V c).arrAt w cfg0.N = V c (Pipeline.arrRef spec0 w) :=
  ((dat0 V c).arrAt_in w hin cfg0.N).trans (A_eq0 V c w)

end Cert.KernelIdeal.Arrays

end
-- ==== Proof.RefStages.lean ====
/-
  The reference's stages as the graph layer's functions.

  The reference computes, on whole arrays: the messages (two host matrix products, their sum, the row scaling by the
  product of the two gathered node weights), their scatter-sum into the nodes, and the node update (one more matrix
  product, the rectifier, the row sum of squares kept as a column, the floored root, the quotient). Read entry by
  entry these are `GraphLayer.message` of the gathered arrays and `GraphLayer.update` of the scattered sums: a host
  matrix product is the plain sum of products, the host's sum along a row is the sum over its columns started from
  the zero word, and the host's root and quotient are the same functions as the kernel's.
-/
import proofs.«151121_j30751965840097_2_alg».proof.Proof.Gen.ReferenceIdeal.Read
import proofs.«151121_j30751965840097_2_alg».proof.Proof.Spec
import Idealize.ShloMosaic.PureOps.Ideal.Laws

set_option maxRecDepth 16384

noncomputable section

namespace Cert.ReferenceIdeal.Stages

open Cert.ReferenceIdeal Cert.ReferenceIdeal.Gen Cert.ReferenceIdeal.Read Idealize.ShloMosaic Idealize.ShloMosaic.ValueIdx

variable (x0 : (⟨S100000x128, .f32⟩ : BufTy).Contents (Elt Ideal)) (x1 : (⟨S100000x1, .f32⟩ : BufTy).Contents (Elt Ideal))
  (x2 x3 : (⟨S1000000, .i32⟩ : BufTy).Contents (Elt Ideal)) (x4 x5 : (⟨S128x128, .f32⟩ : BufTy).Contents (Elt Ideal))

/-- The host's product of an E × 128 array with a 128 × 128 matrix is the matrix product. -/
theorem edgeDot_eq (g : GraphLayer.Mat 1000000 128) (w : GraphLayer.Mat 128 128) :
    Host.dotGeneral dot_S1000000x128_S128x128_S1000000x128_1_0_0_1_n_n none g w = RowsProduct.prod 1000000 128 128 g w :=
  RowsProduct.hostDot_eq 1000000 128 128 g w

/-- The host's product of an N × 128 array with a 128 × 128 matrix is the matrix product. -/
theorem nodeDot_eq (g : GraphLayer.Mat 100000 128) (w : GraphLayer.Mat 128 128) :
    Host.dotGeneral dot_S100000x128_S128x128_S100000x128_1_0_0_1_n_n none g w = RowsProduct.prod 100000 128 128 g w :=
  RowsProduct.hostDot_eq 100000 128 128 g w

/-- The message of three arrays, as the reference spells it on whole arrays. -/
theorem message_spelling (g1 g2 : GraphLayer.Mat 1000000 128) (sc : GraphLayer.Mat 1000000 1) (w1 w2 : GraphLayer.Mat 128 128) :
    mulf (addf (Host.dotGeneral dot_S1000000x128_S128x128_S1000000x128_1_0_0_1_n_n none g1 w1)
        (Host.dotGeneral dot_S1000000x128_S128x128_S1000000x128_1_0_0_1_n_n none (mulf g1 g2) w2))
      (broadcastInDim S1000000x128 ![0, 1] bcast_S1000000x1_S1000000x128_0_1 sc)
      = GraphLayer.message 1000000 g1 g2 sc w1 w2 := by
  rw [edgeDot_eq, edgeDot_eq]
  funext j
  obtain ⟨p, q, rfl⟩ : ∃ (p : Fin 1000000) (q : Fin 128), j = ix2 p q := ⟨j 0, j 1, eq_ix2 j⟩
  show ((RowsProduct.prod 1000000 128 128 g1 w1 (ix2 p q) : EReal) + RowsProduct.prod 1000000 128 128 (mulf g1 g2) w2 (ix2 p q))
      * broadcastInDim S1000000x128 ![0, 1] bcast_S1000000x1_S1000000x128_0_1 sc (ix2 p q) = _
  rw [broadcastInDim_apply _ bcast_S1000000x1_S1000000x128_0_1 sc (ix2 p q) (ix2 p (0 : Fin 1)) (fun a => match a with
    | ⟨0, _⟩ => by show p.val = if (1000000 : Nat) = 1 then 0 else p.val; rw [if_neg (by decide)]
    | ⟨1, _⟩ => by show 0 = if (1 : Nat) = 1 then 0 else q.val; rw [if_pos rfl])]
  rfl

/-- The reference's message array is the message of its gathered arrays. -/
theorem messages_eq :
    val_main_v34 (F := Ideal) x0 x1 x2 x3 x4 x5
      = GraphLayer.message 1000000 (val_main_v6 (F := Ideal) x0 x2) (val_main_v13 (F := Ideal) x0 x3)
          (val_main_v32 (F := Ideal) x1 x2 x3) x4 x5 := by
  unfold val_main_v34 val_main_v33 val_main_v17 val_main_v16 val_main_v15 val_main_v14
  generalize val_main_v6 (F := Ideal) x0 x2 = g1
  generalize val_main_v13 (F := Ideal) x0 x3 = g2
  generalize val_main_v32 (F := Ideal) x1 x2 x3 = sc
  exact message_spelling g1 g2 sc x4 x5

/-- The rectifier as the reference spells it on a whole array (zero and slope spread from scalars). -/
theorem rectify_spelling (v : GraphLayer.Mat 100000 128) :
    select (cmpf .oge v (broadcastInDim S100000x128 ![] bcast_S_S100000x128 (constant S_ .f32 0x00000000#32))) v
        (mulf (broadcastInDim S100000x128 ![] bcast_S_S100000x128 (constant S_ .f32 0x3E4CCCCD#32)) v)
      = fun i => GraphLayer.leaky (v i) := rfl

/-- The rectified pre-activation of any accumulated array, as the reference spells it. -/
theorem activated_spelling (A ego : GraphLayer.Mat 100000 128) (w1 : GraphLayer.Mat 128 128) :
    select (cmpf .oge (addf A (Host.dotGeneral dot_S100000x128_S128x128_S100000x128_1_0_0_1_n_n none ego w1))
          (broadcastInDim S100000x128 ![] bcast_S_S100000x128 (constant S_ .f32 0x00000000#32)))
        (addf A (Host.dotGeneral dot_S100000x128_S128x128_S100000x128_1_0_0_1_n_n none ego w1))
        (mulf (broadcastInDim S100000x128 ![] bcast_S_S100000x128 (constant S_ .f32 0x3E4CCCCD#32))
          (addf A (Host.dotGeneral dot_S100000x128_S128x128_S100000x128_1_0_0_1_n_n none ego w1)))
      = GraphLayer.activated 100000 A ego w1 := by
  rw [nodeDot_eq, rectify_spelling]
  rfl

/-- The reference's rectified pre-activation. -/
theorem activated_eq :
    val_main_v44 (F := Ideal) x0 x1 x2 x3 x4 x5
      = GraphLayer.activated 100000 (val_main_v37 (F := Ideal) x0 x1 x2 x3 x4 x5) x0 x4 := by
  unfold val_main_v44 val_main_v43 val_main_v42 val_main_v41 val_main_v40 val_main_v39 val_main_v38 val_main_cst_7 val_main_cst_8
  exact activated_spelling _ x0 x4

/-- The squares summed along each row from the zero word, set as a column. -/
def rowSums (h : GraphLayer.Mat 100000 128) : GraphLayer.Mat 100000 1 :=
  broadcastInDim S100000x1 ![0] bcast_S100000_S100000x1_0
    (Host.reduceAdd (mulf h h) (constant S_ .f32 0x00000000#32) reducesTo_S100000x128_S100000_d1 h_S_)

/-- The root of that column, floored. -/
def lengths (h : GraphLayer.Mat 100000 128) : GraphLayer.Mat 100000 1 :=
  maximumf (Host.sqrt (rowSums h)) (broadcastInDim S100000x1 ![] bcast_S_S100000x1 (constant S_ .f32 0x2B8CBCCC#32))

/-- The column of row sums at row p is the sum over the columns of the squares of row p. -/
theorem rowSums_apply (h : GraphLayer.Mat 100000 128) (p : Fin 100000) :
    rowSums h (ix2 p (0 : Fin 1)) = GraphLayer.rowSq 100000 h p := by
  unfold rowSums
  rw [broadcastInDim_apply _ bcast_S100000_S100000x1_0
    (Host.reduceAdd (mulf h h) (constant S_ .f32 0x00000000#32) reducesTo_S100000x128_S100000_d1 h_S_)
    (ix2 p (0 : Fin 1)) (ix1 p) (fun a => match a with
      | ⟨0, _⟩ => by show p.val = if (100000 : Nat) = 1 then 0 else p.val; rw [if_neg (by decide)])]
  simp only [Host.reduceAdd, Ideal.hostReduceAdd_def]
  rw [Ideal.hostReduceAdd_single reducesTo_S100000x128_S100000_d1 (by decide)]
  unfold GraphLayer.rowSq
  refine Eq.trans (congrArg₂ (· + ·)
    (show (constant (F := Ideal) S_ .f32 0x00000000#32 (Shape.Idx.first h_S_) : EReal) = 0 from Ideal.ofBits_zero_f32)
    (Finset.sum_congr rfl fun k _ => ?_)) (zero_add _)
  exact congrArg (fun i => (h i : EReal) * h i)
    (funext fun a => Fin.ext (by match a with | ⟨0, _⟩ => rfl | ⟨1, _⟩ => rfl))

/-- The host's quotient, maximum and root, read at an entry. -/
theorem hostDivf_apply {s : Shape} (x y : FVec Ideal s .f32) (i : s.Idx) : Host.divf x y i = Ideal.div (x i) (y i) := rfl
theorem maximumf_apply {s : Shape} (x y : FVec Ideal s .f32) (i : s.Idx) : maximumf x y i = max (x i : EReal) (y i) := rfl
theorem hostSqrt_apply {s : Shape} (x : FVec Ideal s .f32) (i : s.Idx) : Host.sqrt x i = Ideal.sqrt (x i) := rfl
/-- A scalar word spread over a column. -/
theorem floor_apply (i : S100000x1.Idx) :
    broadcastInDim S100000x1 ![] bcast_S_S100000x1 (constant (F := Ideal) S_ .f32 0x2B8CBCCC#32) i
      = Ideal.ofBits .f32 0x2B8CBCCC#32 := rfl

/-- The normalisation of any array, as the reference spells it: each entry over its row's floored length. -/
theorem normalize_spelling (h : GraphLayer.Mat 100000 128) :
    Host.divf h (broadcastInDim S100000x128 ![0, 1] bcast_S100000x1_S100000x128_0_1 (lengths h))
      = GraphLayer.normalized 100000 h := by
  funext j
  obtain ⟨p, q, rfl⟩ : ∃ (p : Fin 100000) (q : Fin 128), j = ix2 p q := ⟨j 0, j 1, eq_ix2 j⟩
  rw [hostDivf_apply,
    broadcastInDim_apply _ bcast_S100000x1_S100000x128_0_1 (lengths h) (ix2 p q) (ix2 p (0 : Fin 1)) (fun a => match a with
      | ⟨0, _⟩ => by show p.val = if (100000 : Nat) = 1 then 0 else p.val; rw [if_neg (by decide)]
      | ⟨1, _⟩ => by show 0 = if (1 : Nat) = 1 then 0 else q.val; rw [if_pos rfl])]
  unfold lengths
  rw [maximumf_apply, hostSqrt_apply, rowSums_apply, floor_apply]
  rfl

/-- The reference's result is the update of the scattered sums. -/
theorem update_eq :
    val_main_v52 (F := Ideal) x0 x1 x2 x3 x4 x5
      = GraphLayer.update 100000 (val_main_v37 (F := Ideal) x0 x1 x2 x3 x4 x5) x0 x4 := by
  unfold val_main_v52 val_main_v51 val_main_v50 val_main_v49 val_main_v48 val_main_v47 val_main_v46 val_main_v45
    val_main_cst_9 val_main_cst_10
  rw [activated_eq]
  exact normalize_spelling _

end Cert.ReferenceIdeal.Stages

end
-- ==== Proof.Bridge.lean ====
/-
  The idealized kernel's result is the reference's last stage of the same arguments.

  Reading the run backwards from the result buffer: the second region leaves the update of what it found (the
  scatter-sum of the first region's messages, the node features, W1); the second stretch of host operations
  scatter-adds the messages into a zero table; the first region leaves the messages of what it found (the gathered
  node features, the product of the gathered node weights, W1 and W2); the first stretch gathers them. The
  reference performs the same gathers and the same scatter-sum on whole arrays, so once its stages are written as the
  same message and update (the reference's stages module) both results are one term: the gathers and the scatter are
  never opened. A change of float format is the identity on the extended reals.
-/
import proofs.«151121_j30751965840097_2_alg».proof.Proof.Gen.KernelIdeal.Frame
import proofs.«151121_j30751965840097_2_alg».proof.Proof.Regions
import proofs.«151121_j30751965840097_2_alg».proof.Proof.RefStages
import Idealize.ShloMosaic.Lib.StableHlo.Run

set_option maxRecDepth 16384

noncomputable section

namespace Cert.Proof.Bridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The six arguments as launched. -/
abbrev ego : GraphLayer.Mat 100000 128 := m ((c.tc : Thread nD τ).loc main_arg0)
abbrev nrm : (⟨Cert.ReferenceIdeal.S100000x1, .f32⟩ : BufTy).Contents (Elt Ideal) := m ((c.tc : Thread nD τ).loc main_arg1)
abbrev src : (⟨Cert.ReferenceIdeal.S1000000, .i32⟩ : BufTy).Contents (Elt Ideal) := m ((c.tc : Thread nD τ).loc main_arg2)
abbrev dst : (⟨Cert.ReferenceIdeal.S1000000, .i32⟩ : BufTy).Contents (Elt Ideal) := m ((c.tc : Thread nD τ).loc main_arg3)
abbrev wOne : GraphLayer.Mat 128 128 := m ((c.tc : Thread nD τ).loc main_arg4)
abbrev wTwo : GraphLayer.Mat 128 128 := m ((c.tc : Thread nD τ).loc main_arg5)

/-! ## What the first region is entered with: the first stretch of host operations, from the launch memory -/

/-- The node features (their cast to the narrower format is the identity). -/
theorem entry_ego : (V1 m ρ c main_v0 : GraphLayer.Mat 100000 128) = ego m c := by
  show StableHlo.after hostOps0 (W0 m ρ c) (Proc.devRef .tc main_v0) = _
  after_results
  rfl

/-- The first weight matrix. -/
theorem entry_wOne : (V1 m ρ c main_v1 : GraphLayer.Mat 128 128) = wOne m c := by
  show StableHlo.after hostOps0 (W0 m ρ c) (Proc.devRef .tc main_v1) = _
  after_results
  rfl

/-- The second weight matrix. -/
theorem entry_wTwo : (V1 m ρ c main_v2 : GraphLayer.Mat 128 128) = wTwo m c := by
  show StableHlo.after hostOps0 (W0 m ρ c) (Proc.devRef .tc main_v2) = _
  after_results
  rfl

/-- The features gathered at the edges' sources: the reference's gather of the same arguments. -/
theorem entry_src : (V1 m ρ c main_v9 : GraphLayer.Mat 1000000 128) = Cert.ReferenceIdeal.Read.val_main_v6 (F := Ideal) (ego m c) (src m c) := by
  show StableHlo.after hostOps0 (W0 m ρ c) (Proc.devRef .tc main_v9) = _
  after_results
  rfl

/-- The features gathered at the edges' destinations. -/
theorem entry_dst : (V1 m ρ c main_v16 : GraphLayer.Mat 1000000 128) = Cert.ReferenceIdeal.Read.val_main_v13 (F := Ideal) (ego m c) (dst m c) := by
  show StableHlo.after hostOps0 (W0 m ρ c) (Proc.devRef .tc main_v16) = _
  after_results
  rfl

/-- The product of the node weights gathered at the two ends of each edge. -/
theorem entry_scale : (V1 m ρ c main_v31 : GraphLayer.Mat 1000000 1) = Cert.ReferenceIdeal.Read.val_main_v32 (F := Ideal) (nrm m c) (src m c) (dst m c) := by
  show StableHlo.after hostOps0 (W0 m ρ c) (Proc.devRef .tc main_v31) = _
  after_results_simp
  rfl

/-- The destination indices are untouched by the first stretch. -/
theorem entry_dstIdx : W1 m ρ c (Proc.devRef .tc main_arg3) = dst m c := by
  show StableHlo.after hostOps0 (W0 m ρ c) (Proc.devRef .tc main_arg3) = _
  after_results

/-! ## After the first region -/

/-- The messages it leaves are the reference's message stage of the same arguments. -/
theorem after_messages :
    (W2 m ρ c (Proc.devRef .tc main_v32) : GraphLayer.Mat 1000000 128)
      = Cert.ReferenceIdeal.Read.val_main_v34 (F := Ideal) (ego m c) (nrm m c) (src m c) (dst m c) (wOne m c) (wTwo m c) := by
  refine ((W2_arr m ρ c 5).trans (Cert.KernelIdeal.Arrays.array0 (V1 m ρ) c)).trans ?_
  show GraphLayer.message 1000000 (V1 m ρ c main_v9) (V1 m ρ c main_v16) (V1 m ρ c main_v31) (V1 m ρ c main_v1)
    (V1 m ρ c main_v2) = _
  rw [entry_src, entry_dst, entry_scale, entry_wOne, entry_wTwo]
  exact (Cert.ReferenceIdeal.Stages.messages_eq _ _ _ _ _ _).symm

/-- The node features are no array of the first region: it leaves them. -/
theorem after_ego : (W2 m ρ c (Proc.devRef .tc main_v0) : GraphLayer.Mat 100000 128) = ego m c :=
  (W2_of_ne m ρ c main_v0 (by decide)).trans (entry_ego m ρ c)

/-- The first weight matrix is an input of the first region: it leaves it. -/
theorem after_wOne : (W2 m ρ c (Proc.devRef .tc main_v1) : GraphLayer.Mat 128 128) = wOne m c :=
  (W2_arr m ρ c 3).trans ((Cert.KernelIdeal.Arrays.kept0 (V1 m ρ) c 3 rfl).trans (entry_wOne m ρ c))

/-- The destination indices are no array of the first region. -/
theorem after_dstIdx : W2 m ρ c (Proc.devRef .tc main_arg3) = dst m c :=
  (W2_of_ne m ρ c main_arg3 (by decide)).trans (entry_dstIdx m ρ c)

/-! ## What the second region is entered with: the second stretch of host operations -/

/-- The messages scatter-added into a zero table by destination: the reference's scatter stage. -/
theorem entry2_acc :
    (V3 m ρ c main_v36 : GraphLayer.Mat 100000 128)
      = Cert.ReferenceIdeal.Read.val_main_v37 (F := Ideal) (ego m c) (nrm m c) (src m c) (dst m c) (wOne m c) (wTwo m c) := by
  show StableHlo.after hostOps1 (W2 m ρ c) (Proc.devRef .tc main_v36) = _
  after_results
  rw [after_dstIdx, after_messages]
  rfl

theorem entry2_ego : (V3 m ρ c main_v0 : GraphLayer.Mat 100000 128) = ego m c := by
  show StableHlo.after hostOps1 (W2 m ρ c) (Proc.devRef .tc main_v0) = _
  after_results
  exact after_ego m ρ c

theorem entry2_wOne : (V3 m ρ c main_v1 : GraphLayer.Mat 128 128) = wOne m c := by
  show StableHlo.after hostOps1 (W2 m ρ c) (Proc.devRef .tc main_v1) = _
  after_results
  exact after_wOne m ρ c

/-! ## The result -/

/-- THE KERNEL'S RESULT BUFFER after the run holds the reference's last stage of the launch arguments. -/
theorem result_eq :
    (W4 m ρ c (Proc.devRef .tc main_v37) : GraphLayer.Mat 100000 128)
      = Cert.ReferenceIdeal.Read.val_main_v52 (F := Ideal) (ego m c) (nrm m c) (src m c) (dst m c) (wOne m c) (wTwo m c) := by
  refine ((W4_arr m ρ c 3).trans (Cert.KernelIdeal.Arrays.array1 (V3 m ρ) c)).trans ?_
  show GraphLayer.update 100000 (V3 m ρ c main_v36) (V3 m ρ c main_v0) (V3 m ρ c main_v1) = _
  rw [entry2_acc, entry2_ego, entry2_wOne]
  exact (Cert.ReferenceIdeal.Stages.update_eq _ _ _ _ _ _).symm

end Cert.Proof.Bridge

end
-- ==== Proof.lean ====
/-
  One layer of message passing on a graph of 100000 nodes and 1000000 edges, features of width 128: for each edge
  the message (hs·W1 + (hs ∘ hd)·W2) · (n_src · n_dst) of the features gathered at its two ends, the messages summed
  into their destination nodes, and at each node the rectified sum acc + ego·W1 divided by its floored length.

  The kernel does the two dense steps in two pipelined regions that tile the rows (edges, then nodes) over a grid,
  4000 rows a point, with the gathers and the scatter-sum as host operations around them; the reference does
  everything on whole arrays. On the extended reals the two are the same function of the arguments:
    * both dense steps are row local, so a region's output array is the whole-array message (update) of the arrays
      it finds (Proof/Spec.lean, Proof/KernelBody.lean, Proof/Regions.lean);
    * the reference's stages are the same message and update of its gathered arrays and of its scatter-sum
      (Proof/RefStages.lean);
    * the gathers and the scatter-sum are the same operations of the same arguments on both sides, and a change of
      float format is the identity, so the kernel's result buffer holds the reference's last stage
      (Proof/Bridge.lean), read off the run in which every buffer is named (Proof/KernelRun.lean).
  No sum is reordered across an infinity and no factor is moved across a sum, so the finiteness of the inputs is never
  used. The idealization rewrote nothing in the kernel, so there is nothing to preserve.
-/
import proofs.«151121_j30751965840097_2_alg».proof.Defs
import proofs.«151121_j30751965840097_2_alg».proof.Proof.Gen.Kernel
import proofs.«151121_j30751965840097_2_alg».proof.Proof.Gen.Kernel.Frame
import proofs.«151121_j30751965840097_2_alg».proof.Proof.Gen.KernelIdeal
import proofs.«151121_j30751965840097_2_alg».proof.Proof.Gen.KernelIdeal.Frame
import proofs.«151121_j30751965840097_2_alg».proof.Proof.Gen.ReferenceIdeal
import proofs.«151121_j30751965840097_2_alg».proof.Proof.Gen.ReferenceIdeal.Run
import proofs.«151121_j30751965840097_2_alg».proof.Proof.Gen.ReferenceIdeal.Read
import proofs.«151121_j30751965840097_2_alg».proof.Proof.Gen.Pre_finite_inputs
import proofs.«151121_j30751965840097_2_alg».proof.Proof.KernelRun
import proofs.«151121_j30751965840097_2_alg».proof.Proof.Bridge
import Idealize.ShloMosaic.Adequacy
import Idealize.ShloMosaic.Init

noncomputable section

namespace Cert.Proof

open Idealize.ShloMosaic Idealize.SL.Sem

/-- The kernel as printed runs and leaves its arguments. -/
theorem frame_kernel : Cert.frame_Kernel := fun m ρ _ => Cert.Kernel.Gen.frame m ρ

/-- The idealized kernel runs and leaves its arguments. -/
theorem frame_kernelIdeal : Cert.frame_KernelIdeal := fun m ρ _ => Cert.KernelIdeal.Gen.frame m ρ

/-- The idealized reference runs and leaves its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the reference's last stage of those
    arguments in their result buffers. -/
theorem algebraic : Cert.algebraic_KernelIdeal_ReferenceIdeal := by
  intro m ρ m' ρ' _ hagree
  refine ⟨fun c => Cert.ReferenceIdeal.Read.val_main_v52 (F := Ideal) (Bridge.ego m c) (Bridge.nrm m c) (Bridge.src m c)
    (Bridge.dst m c) (Bridge.wOne m c) (Bridge.wTwo m c), ?_, ?_⟩
  · exact (θ_run Cert.KernelIdeal.defs _ _).mono
      (fun r h c => ⟨(h c).1.trans (Bridge.result_eq m ρ c), (h c).2⟩) (Cert.KernelIdeal.Run.result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
